-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S3200000 : Shape := ⟨1, ![3200000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S3200000 : S_.BroadcastsInDim S3200000 (![] : Fin 0 → Fin S3200000.rank)
  reducesTo_S3200000_S_d0 : S3200000.ReducesTo [0] S_

variable [Facts]

def fn {F : FTy → Type} [FloatOps F] (main_arg0 : FVec F S100000x16 .f32) (main_arg1 : FVec F S3200000 .f32) (main_arg2 : IVec S3200000 32) (main_arg3 : IVec S3200000 32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  main_v8
-- ==== Kernel.lean ====
abbrev S100000x16 : Shape := ⟨2, ![100000, 16]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S25000x128 : Shape := ⟨2, ![25000, 128]⟩
abbrev S1x1 : Shape := ⟨2, ![1, 1]⟩
abbrev S5000x128 : Shape := ⟨2, ![5000, 128]⟩
abbrev S5000 : Shape := ⟨1, ![5000]⟩
abbrev S5000x1 : Shape := ⟨2, ![5000, 1]⟩
abbrev S1 : Shape := ⟨1, ![1]⟩
abbrev S16 : Shape := ⟨1, ![16]⟩

abbrev nBuf : Space → Nat
  | .hbm => 44
  | .vmem => 8
  | .smem => 0
  | _ => 0

abbrev bufTy : (tb : Table) → Fin (tcTables nBuf tb) → BufTy
  | .hbm, ⟨0, _⟩ => ⟨S100000x16, .f32⟩
  | .hbm, ⟨1, _⟩ => ⟨S3200000, .f32⟩
  | .hbm, ⟨2, _⟩ => ⟨S3200000, .i32⟩
  | .hbm, ⟨3, _⟩ => ⟨S3200000, .i32⟩
  | .hbm, ⟨4, _⟩ => ⟨S_, .f32⟩
  | .hbm, ⟨5, _⟩ => ⟨S100000x16, .f32⟩
  | .hbm, ⟨6, _⟩ => ⟨S100000x16, .f32⟩
  | .hbm, ⟨7, _⟩ => ⟨S_, .i32⟩
  | .hbm, ⟨8, _⟩ => ⟨S3200000, .i32⟩
  | .hbm, ⟨9, _⟩ => ⟨S3200000, .i1⟩
  | .hbm, ⟨10, _⟩ => ⟨S_, .i32⟩
  | .hbm, ⟨11, _⟩ => ⟨S3200000, .i32⟩
  | .hbm, ⟨12, _⟩ => ⟨S3200000, .i32⟩
  | .hbm, ⟨13, _⟩ => ⟨S3200000, .i32⟩
  | .hbm, ⟨14, _⟩ => ⟨S3200000x1, .i32⟩
  | .hbm, ⟨15, _⟩ => ⟨S3200000x16, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x16, .f32⟩
  | .hbm, ⟨25, _⟩ => ⟨S3200000x16, .f32⟩
  | .hbm, ⟨26, _⟩ => ⟨S_, .f32⟩
  | .hbm, ⟨27, _⟩ => ⟨S3200000, .f32⟩
  | .hbm, ⟨28, _⟩ => ⟨S25000x128, .f32⟩
  | .hbm, ⟨29, _⟩ => ⟨S25000x128, .f32⟩
  | .hbm, ⟨30, _⟩ => ⟨S1x1, .f32⟩
  | .hbm, ⟨31, _⟩ => ⟨S1x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S_, .f32⟩
  | .hbm, ⟨43, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![5], ![false]⟩

def k0_cond2 (i : grid0.Coords) : BitVec 1 :=
  let arg0 : BitVec 32 := BitVec.ofNat 32 (i 0).val
  let c4_i32 : BitVec 32 := 4#32
  let v25 : BitVec 1 := Scalar.cmpi .eq arg0 c4_i32
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S100000x16 : S_.BroadcastsInDim S100000x16 (![] : Fin 0 → Fin S100000x16.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x16_S3200000_d1 : S3200000x16.ReducesTo [1] S3200000
  h_S_ : 0 < S_.numel
  shapeCasts_S3200000_S25000x128 : S3200000.ShapeCasts S25000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  reduces_S5000x128_S5000 : S5000x128.Reduces [1] S5000
  shapeCasts_S5000_S5000x1 : S5000.ShapeCasts S5000x1
  reduces_S5000x1_S1 : S5000x1.Reduces [0] S1
  shapeCasts_S1_S1x1 : S1.ShapeCasts S1x1
  shapeCasts_S1x1_S_ : S1x1.ShapeCasts S_
  reducesTo_S100000x16_S16_d0 : S100000x16.ReducesTo [0] S16
  bcast_S_S16 : S_.BroadcastsInDim S16 (![] : Fin 0 → Fin S16.rank)
  reducesTo_S16_S_d0 : S16.ReducesTo [0] S_
  gather_S100000x16_S3200000x1_S3200000x16_1_0_n_n_0_1_116_wf : GatherDims.WF S100000x16 S3200000x1 S3200000x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S100000x16 : Shape := ⟨2, ![100000, 16]⟩
abbrev S3200000 : Shape := ⟨1, ![3200000]⟩
abbrev S_ : Shape := ⟨0, ![]⟩
abbrev S3200000x1 : Shape := ⟨2, ![3200000, 1]⟩
abbrev S3200000x16 : Shape := ⟨2, ![3200000, 16]⟩
abbrev S16 : Shape := ⟨1, ![16]⟩

abbrev nBuf : Space → Nat
  | .hbm => 40
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S3200000, .f32⟩
  | .hbm, ⟨2, _⟩ => ⟨S3200000, .i32⟩
  | .hbm, ⟨3, _⟩ => ⟨S3200000, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S100000x16, .f32⟩
  | .hbm, ⟨8, _⟩ => ⟨S100000x16, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x16, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000x16, .f32⟩
  | .hbm, ⟨27, _⟩ => ⟨S3200000x16, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S16, .f32⟩
  | .hbm, ⟨37, _⟩ => ⟨S_, .f32⟩
  | .hbm, ⟨38, _⟩ => ⟨S_, .f32⟩
  | .hbm, ⟨39, _⟩ => ⟨S_, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S3200000_S_d0 : S3200000.ReducesTo [0] S_
  h_S_ : 0 < S_.numel
  bcast_S_S100000x16 : S_.BroadcastsInDim S100000x16 (![] : Fin 0 → Fin S100000x16.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x16_S_d0_1 : S3200000x16.ReducesTo [0, 1] S_
  reducesTo_S100000x16_S16_d0 : S100000x16.ReducesTo [0] S16
  bcast_S_S16 : S_.BroadcastsInDim S16 (![] : Fin 0 → Fin S16.rank)
  reducesTo_S16_S_d0 : S16.ReducesTo [0] S_
  gather_S100000x16_S3200000x1_S3200000x16_1_0_n_n_0_1_116_wf : GatherDims.WF S100000x16 S3200000x1 S3200000x16 [1] [0] [] [0] [] 1 ![1, 16]

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf

class Facts : Prop extends Facts₀ where

variable [Facts]
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibCols.lean ====
/-
  A reduction over the FIRST axis of a matrix, and a square root, read at explicit coordinates at the exact
  (extended-real) values.

  Column `t` of an [a, b] array reduced over its first axis collects the entries (s, t), s running over the a rows:
  a sum is their sum. A square root of an array reads, at an index, the square root of the entry.
-/
import Idealize.ShloMosaic.PureOps.Ideal.Laws
import Idealize.ShloMosaic.Lib.ValueIdx

open scoped BigOperators

namespace Idealize.ShloMosaic.ValueIdx

open Idealize.ShloMosaic

/-- Inserting the row `s` into the column index `t` gives the entry `(s, t)`. -/
theorem lift_first_ix2 {a b : ℕ} (h : (⟨2, ![a, b]⟩ : Shape).Reduces [0] ⟨1, ![b]⟩) (t : Fin b) (s : Fin a) :
    h.lift (ix1 t) s = ix2 s t := by
  funext d
  refine Fin.ext ?_
  match d with
  | ⟨0, _⟩ => rfl
  | ⟨1, _⟩ => rfl

variable {φ : FTy}

/-- A column's sum: the sum of the column's entries. -/
theorem colSum_apply {a b : ℕ} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (t : Fin b) :
    multiReduction .add [0] ⟨1, ![b]⟩ v acc h hφ hacc (ix1 t) = ∑ s : Fin a, v (ix2 s t) := by
  rw [Ideal.multiReduction_add_single]
  show ∑ s : Fin a, _ = _
  exact Finset.sum_congr rfl fun s _ => congrArg v (lift_first_ix2 h t s)

/-- A square root read at an index. -/
theorem sqrt_apply {s : Shape} (a : FVec Ideal s φ) (i : s.Idx) : sqrt a i = Ideal.sqrt (a i) := rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.Payloads.lean ====
/-
  What the body's stores write, read at the exact values.

  The body reduces a block of 5,000 rows of 128 lanes first along the lanes, then along the rows, and adds the one
  number it gets to the one entry of an accumulator: the new entry is the old entry plus the block's total. The
  reset stores the zero word, which is the number 0.
-/
import proofs.«104725_j28578712388223_2_alg».proof.Proof.Gen.KernelIdeal.Skeleton
import proofs.«104725_j28578712388223_2_alg».proof.Proof.LibRows
import proofs.«104725_j28578712388223_2_alg».proof.Proof.LibCols
import proofs.«104725_j28578712388223_2_alg».proof.Proof.LibLayout

noncomputable section

open scoped BigOperators
open Idealize.ShloMosaic Idealize.ShloMosaic.ValueIdx

namespace Cert.KernelIdeal.Payloads

open Cert.KernelIdeal Cert.KernelIdeal.Gen

/-- A block's total: its rows' sums, summed. -/
def blockTotal (x : Vec Ideal S5000x128 .f32) : EReal := ∑ r : Fin 5000, ∑ l : Fin 128, x (ix2 r l)

/-- The first accumulator's store: the old entry plus the block's total. -/
theorem pay3_apply (x : Vec Ideal S5000x128 .f32) (xs : Vec Ideal S1x1 .f32) (u v : Fin 1) :
    k0_pay3 (F := Ideal) x xs (ix2 u v) = xs (ix2 u v) + blockTotal x := by
  unfold k0_pay3
  dsimp only
  simp only [shapeCast_self]
  rw [addf_apply, shapeCast_a_a1_apply]
  refine congrArg (xs (ix2 u v) + ·) ?_
  refine (colSum_apply _ _ _ _ _ u).trans ?_
  refine Finset.sum_congr rfl fun s _ => ?_
  rw [shapeCast_a_a1_apply]
  exact rowSum_apply _ _ _ _ _ s

/-- The second accumulator's store: the same. -/
theorem pay4_apply (x : Vec Ideal S5000x128 .f32) (xs : Vec Ideal S1x1 .f32) (u v : Fin 1) :
    k0_pay4 (F := Ideal) x xs (ix2 u v) = xs (ix2 u v) + blockTotal x := by
  unfold k0_pay4
  dsimp only
  simp only [shapeCast_self]
  rw [addf_apply, shapeCast_a_a1_apply]
  refine congrArg (xs (ix2 u v) + ·) ?_
  refine (colSum_apply _ _ _ _ _ u).trans ?_
  refine Finset.sum_congr rfl fun s _ => ?_
  rw [shapeCast_a_a1_apply]
  exact rowSum_apply _ _ _ _ _ s

/-- The reset of the first accumulator stores 0. -/
theorem pay1_apply (y : S1x1.Idx) : k0_pay1 (F := Ideal) y = 0 := by
  unfold k0_pay1
  rw [shapeCast_self, broadcast_apply]
  exact Ideal.ofBits_zero_f32

/-- The reset of the second accumulator stores 0. -/
theorem pay2_apply (y : S1x1.Idx) : k0_pay2 (F := Ideal) y = 0 := by
  unfold k0_pay2
  rw [shapeCast_self, broadcast_apply]
  exact Ideal.ofBits_zero_f32

end Cert.KernelIdeal.Payloads

end
-- ==== Proof.Pieces.lean ====
/-
  The body's three cases, read as values.

  At the first grid point the body resets both accumulators and then adds the point's block totals; at the middle
  points it adds them to what the point before left; at the last point it does the same and copies the two
  accumulators to the two outputs.
-/
import proofs.«104725_j28578712388223_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

/-! What each case of the body leaves in the two accumulators and, at the last point, in the two outputs: in every
    case one store covers the buffer, so the buffer holds that store's value, computed from the block just loaded and
    from what the accumulator held (the zero just stored, at the first point). -/

namespace Cert.KernelIdeal.Pieces

open Cert.KernelIdeal Cert.KernelIdeal.Gen

variable {F : FTy → Type} [FloatOps F]
variable (c : Dev nD) (i : grid0.Coords)
  (arg1 : Memref sig .tc .vmem S5000x128 .f32) (harg1 : arg1.IsWhole)
  (arg2 : Memref sig .tc .vmem S5000x128 .f32) (harg2 : arg2.IsWhole)
  (arg3 : Memref sig .tc .vmem S1x1 .f32) (harg3 : arg3.IsWhole)
  (arg4 : Memref sig .tc .vmem S1x1 .f32) (harg4 : arg4.IsWhole)
  (arg5 : Memref sig .tc .vmem S1x1 .f32) (harg5 : arg5.IsWhole)
  (arg6 : Memref sig .tc .vmem S1x1 .f32) (harg6 : arg6.IsWhole)
  (x0 x1 : Vec F S5000x128 .f32) (xs0 xs1 : Vec F S1x1 .f32)

theorem hz : (![0, 0] : Fin 2 → Nat) = fun _ => 0 := funext fun a => by fin_cases a <;> rfl

/-- At the first point the first accumulator ends at the store's value over the zero just stored. -/
theorem first_acc0 (hc0 : cond0_0 i) (hc1 : ¬cond0_1 i) :
    sout0_A_0 c i arg1 harg1 arg2 harg2 arg3 harg3 arg4 harg4 arg5 harg5 arg6 harg6 hc0 hc1 x0 x1 = k0_pay3 x0 (k0_pay1 (F := F)) := by
  unfold sout0_A_0
  rw [View.read_writes_eq_canon _ _ _ (scover0_A_0 c i arg1 harg1 arg2 harg2 arg3 harg3 arg4 harg4 arg5 harg5 arg6 harg6 hc0 hc1 x0 x1)]
  unfold kernelRun0_A
  dsimp only
  sl_unfold_words
  rw [View.canon_cons_unit_zero (S := S1x1) hz, View.readCov_unit_zero (S := S1x1) _ hz]
  simp only [View.readAt_eq_ld, harg1.read_unread, View.ld_unit_zero (S := S5000x128) hz, View.ld_unit_zero (S := S1x1) hz]

/-- At the first point the second accumulator ends at the store's value over the zero just stored. -/
theorem first_acc1 (hc0 : cond0_0 i) (hc1 : ¬cond0_1 i) :
    sout0_A_1 c i arg1 harg1 arg2 harg2 arg3 harg3 arg4 harg4 arg5 harg5 arg6 harg6 hc0 hc1 x0 x1 = k0_pay4 x1 (k0_pay2 (F := F)) := by
  unfold sout0_A_1
  rw [View.read_writes_eq_canon _ _ _ (scover0_A_1 c i arg1 harg1 arg2 harg2 arg3 harg3 arg4 harg4 arg5 harg5 arg6 harg6 hc0 hc1 x0 x1)]
  unfold kernelRun0_A
  dsimp only
  sl_unfold_words
  rw [View.canon_cons_unit_zero (S := S1x1) hz, View.readCov_unit_zero (S := S1x1) _ hz]
  simp only [View.readAt_eq_ld, harg2.read_unread, View.ld_unit_zero (S := S5000x128) hz, View.ld_unit_zero (S := S1x1) hz]

/-- At a middle point the first accumulator ends at the store's value over what it held. -/
theorem middle_acc0 (hc0 : ¬cond0_0 i) (hc1 : ¬cond0_1 i) :
    sout0_B_0 c i arg1 harg1 arg2 harg2 arg3 harg3 arg4 harg4 arg5 harg5 arg6 harg6 hc0 hc1 x0 x1 xs0 xs1 = k0_pay3 x0 xs0 := by
  unfold sout0_B_0
  rw [View.read_writes_eq_canon _ _ _ (scover0_B_0 c i arg1 harg1 arg2 harg2 arg3 harg3 arg4 harg4 arg5 harg5 arg6 harg6 hc0 hc1 x0 x1 xs0 xs1)]
  unfold kernelRun0_B
  dsimp only
  sl_unfold_words
  rw [View.canon_unit_zero (S := S1x1) hz]
  simp only [View.readAt_eq_ld, harg1.read_unread, harg5.read_unread, View.ld_unit_zero (S := S5000x128) hz, View.ld_unit_zero (S := S1x1) hz]

/-- At a middle point the second accumulator ends at the store's value over what it held. -/
theorem middle_acc1 (hc0 : ¬cond0_0 i) (hc1 : ¬cond0_1 i) :
    sout0_B_1 c i arg1 harg1 arg2 harg2 arg3 harg3 arg4 harg4 arg5 harg5 arg6 harg6 hc0 hc1 x0 x1 xs0 xs1 = k0_pay4 x1 xs1 := by
  unfold sout0_B_1
  rw [View.read_writes_eq_canon _ _ _ (scover0_B_1 c i arg1 harg1 arg2 harg2 arg3 harg3 arg4 harg4 arg5 harg5 arg6 harg6 hc0 hc1 x0 x1 xs0 xs1)]
  unfold kernelRun0_B
  dsimp only
  sl_unfold_words
  rw [View.canon_unit_zero (S := S1x1) hz]
  simp only [View.readAt_eq_ld, harg2.read_unread, harg6.read_unread, View.ld_unit_zero (S := S5000x128) hz, View.ld_unit_zero (S := S1x1) hz]

/-- At the last point the first accumulator ends at the store's value over what it held. -/
theorem last_acc0 (hc0 : ¬cond0_0 i) (hc1 : cond0_1 i) :
    sout0_C_0 c i arg1 harg1 arg2 harg2 arg3 harg3 arg4 harg4 arg5 harg5 arg6 harg6 hc0 hc1 x0 x1 xs0 xs1 = k0_pay3 x0 xs0 := by
  unfold sout0_C_0
  rw [View.read_writes_eq_canon _ _ _ (scover0_C_0 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x1) hz]
  simp only [View.readAt_eq_ld, harg1.read_unread, harg5.read_unread, View.ld_unit_zero (S := S5000x128) hz, View.ld_unit_zero (S := S1x1) hz]

/-- At the last point the second accumulator ends at the store's value over what it held. -/
theorem last_acc1 (hc0 : ¬cond0_0 i) (hc1 : cond0_1 i) :
    sout0_C_1 c i arg1 harg1 arg2 harg2 arg3 harg3 arg4 harg4 arg5 harg5 arg6 harg6 hc0 hc1 x0 x1 xs0 xs1 = k0_pay4 x1 xs1 := by
  unfold sout0_C_1
  rw [View.read_writes_eq_canon _ _ _ (scover0_C_1 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x1) hz]
  simp only [View.readAt_eq_ld, harg2.read_unread, harg6.read_unread, View.ld_unit_zero (S := S5000x128) hz, View.ld_unit_zero (S := S1x1) hz]

/-- At the last point the first output receives the first accumulator's new value. -/
theorem last_out0 (hc0 : ¬cond0_0 i) (hc1 : cond0_1 i) :
    out0_C_2 c i arg1 harg1 arg2 harg2 arg3 harg3 arg4 harg4 arg5 harg5 arg6 harg6 hc0 hc1 x0 x1 xs0 xs1 = k0_pay3 x0 xs0 := by
  unfold out0_C_2
  rw [View.read_writes_eq_canon _ _ _ (cover0_C_2 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x1) hz, View.readCov_unit_zero (S := S1x1) _ hz]
  simp only [View.readAt_eq_ld, harg1.read_unread, harg5.read_unread, View.ld_unit_zero (S := S5000x128) hz, View.ld_unit_zero (S := S1x1) hz]

/-- At the last point the second output receives the second accumulator's new value. -/
theorem last_out1 (hc0 : ¬cond0_0 i) (hc1 : cond0_1 i) :
    out0_C_3 c i arg1 harg1 arg2 harg2 arg3 harg3 arg4 harg4 arg5 harg5 arg6 harg6 hc0 hc1 x0 x1 xs0 xs1 = k0_pay4 x1 xs1 := by
  unfold out0_C_3
  rw [View.read_writes_eq_canon _ _ _ (cover0_C_3 c i arg1 harg1 arg2 harg2 arg3 harg3 arg4 harg4 arg5 harg5 arg6 harg6 hc0 hc1 x0 x1 xs0 xs1)]
  unfold kernelRun0_C
  dsimp only
  sl_unfold_words
  rw [View.canon_unit_zero (S := S1x1) hz, View.readCov_unit_zero (S := S1x1) _ hz]
  simp only [View.readAt_eq_ld, harg2.read_unread, harg6.read_unread, View.ld_unit_zero (S := S5000x128) hz, View.ld_unit_zero (S := S1x1) hz]

end Cert.KernelIdeal.Pieces

end
-- ==== Proof.LibBlocks.lean ====
/-
  Sums over a range cut into stretches of equal length.

  A range of A * B entries is A stretches of B entries; entry b of stretch a is entry a * B + b of the range, and a
  sum over the range is the sum over the stretches of each stretch's sum.
-/
import Mathlib.Algebra.BigOperators.Fin
import Mathlib.Logic.Equiv.Fin.Basic

open Finset

namespace Cert.LibBlocks

/-- Entry `b` of stretch `a`, when a range of `A * B` entries is cut into `A` stretches of `B`. -/
def entry {A B : ℕ} (a : Fin A) (b : Fin B) : Fin (A * B) :=
  ⟨a.val * B + b.val, by
    have h1 : a.val * B + b.val < a.val * B + B := Nat.add_lt_add_left b.isLt _
    have h2 : a.val * B + B = (a.val + 1) * B := (Nat.succ_mul _ _).symm
    have h3 : (a.val + 1) * B ≤ A * B := Nat.mul_le_mul_right _ a.isLt
    omega⟩

/-- A sum over `A * B` entries is the sum over the stretches of each stretch's sum. -/
theorem sum_entries {M : Type*} [AddCommMonoid M] {A B : ℕ} (g : Fin (A * B) → M) :
    ∑ k, g k = ∑ a : Fin A, ∑ b : Fin B, g (entry a b) := by
  rw [← finProdFinEquiv.sum_comp g, Fintype.sum_prod_type]
  refine sum_congr rfl fun a _ => sum_congr rfl fun b _ => congrArg g (Fin.ext ?_)
  show b.val + B * a.val = a.val * B + b.val
  rw [Nat.mul_comm, Nat.add_comm]

end Cert.LibBlocks
-- ==== Proof.LibBlocks3.lean ====
/-
  Sums over a range cut twice: into blocks, and each block into rows.

  A range of A * B * C entries is A blocks of B rows of C entries; entry c of row b of block a is entry
  (a * B + b) * C + c of the range, and a sum over the range is the sum over the blocks of the sums over each block's
  rows of each row's sum.
-/
import proofs.«104725_j28578712388223_2_alg».proof.Proof.LibBlocks

open Finset

namespace Cert.LibBlocks3

/-- Entry `c` of row `b` of block `a`, when a range of `A * B * C` entries is cut into `A` blocks of `B` rows of `C`. -/
def entry3 {A B C : ℕ} (a : Fin A) (b : Fin B) (c : Fin C) : Fin (A * B * C) :=
  Cert.LibBlocks.entry (Cert.LibBlocks.entry a b) c

/-- Its position in the range. -/
theorem entry3_val {A B C : ℕ} (a : Fin A) (b : Fin B) (c : Fin C) :
    (entry3 a b c).val = (a.val * B + b.val) * C + c.val := rfl

/-- A sum over `A * B * C` entries is the sum over the blocks, of the sums over a block's rows, of each row's sum. -/
theorem sum_entries3 {M : Type*} [AddCommMonoid M] {A B C : ℕ} (g : Fin (A * B * C) → M) :
    ∑ k, g k = ∑ a : Fin A, ∑ b : Fin B, ∑ c : Fin C, g (entry3 a b c) := by
  rw [Cert.LibBlocks.sum_entries (A := A * B) (B := C) g,
    Cert.LibBlocks.sum_entries (A := A) (B := B) (fun ab => ∑ c : Fin C, g (Cert.LibBlocks.entry ab c))]
  rfl

end Cert.LibBlocks3
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Totals.lean ====
/-
  The two totals of the computation, as sums over explicit coordinates.

  A vector of 3,200,000 entries is laid out as 25,000 rows of 128 lanes and read five blocks of 5,000 rows at a
  time: entry `l` of row `r` of block `s` is entry `(5000 s + r) · 128 + l` of the vector. Summing each row, then
  the rows of a block, then the blocks, visits every entry exactly once, so the blocked total is the plain total.
  A matrix of 3,200,000 rows of 16 entries summed row by row and then over the rows is its total as well.
-/
import Idealize.ShloMosaic.PureOps.Ideal.Laws
import Idealize.ShloMosaic.Lib.ValueIdx
import proofs.«104725_j28578712388223_2_alg».proof.Proof.LibBlocks3
import proofs.«104725_j28578712388223_2_alg».proof.Proof.LibSums

noncomputable section

open scoped BigOperators
open Idealize.ShloMosaic Idealize.ShloMosaic.ValueIdx

namespace Cert.Totals

/-- The vector's shape and the matrix's. -/
abbrev SE : Shape := ⟨1, ![3200000]⟩
abbrev SEG : Shape := ⟨2, ![3200000, 16]⟩

/-- Entry `l` of row `r` of block `s`, as a position in the vector. -/
def pos (s : Fin 5) (r : Fin 5000) (l : Fin 128) : Fin 3200000 :=
  ⟨(s.val * 5000 + r.val) * 128 + l.val, by have := s.isLt; have := r.isLt; have := l.isLt; omega⟩

/-- A sum over the vector's positions, block by block, row by row, lane by lane. -/
theorem sum_pos {M : Type*} [AddCommMonoid M] (g : Fin 3200000 → M) :
    ∑ k, g k = ∑ s : Fin 5, ∑ r : Fin 5000, ∑ l : Fin 128, g (pos s r l) := by
  exact Cert.LibBlocks3.sum_entries3 (A := 5) (B := 5000) (C := 128) g

/-- The total of block `s` of a vector `A`: its rows' sums, summed. -/
def blockSum (A : SE.Idx → EReal) (s : Fin 5) : EReal := ∑ r : Fin 5000, ∑ l : Fin 128, A (ix1 (pos s r l))

/-- The blocked total of a vector `A` from a starting value `z`. -/
def blocked (z : EReal) (A : SE.Idx → EReal) : EReal := z + ∑ s : Fin 5, blockSum A s

/-- The blocked total is the total. -/
theorem blocked_eq (z : EReal) (A : SE.Idx → EReal) : blocked z A = z + ∑ i : SE.Idx, A i := by
  unfold blocked blockSum
  rw [Cert.LibSums.sum_idx1 A, sum_pos (fun k => A (ix1 k))]

/-- The rows' sums of a matrix, each from zero. -/
def rowSums (P : SEG.Idx → EReal) : SE.Idx → EReal := fun e => 0 + ∑ j : Fin 16, P (ix2 (e 0) j)

/-- The blocked total of the rows' sums is the matrix's total. -/
theorem blocked_rowSums (z : EReal) (P : SEG.Idx → EReal) :
    blocked z (rowSums P) = z + ∑ i : SEG.Idx, P i := by
  rw [blocked_eq, Cert.LibSums.sum_idx1, sum_idx2]
  refine congrArg (z + ·) (Finset.sum_congr rfl fun k _ => ?_)
  show 0 + ∑ j : Fin 16, P (ix2 k j) = _
  rw [zero_add]

end Cert.Totals

end
-- ==== Proof.Blocks.lean ====
/-
  The two arrays the region reads, and their blocks at explicit coordinates.

  Before the region the host lays the vector of edge values out as 25,000 rows of 128 lanes, and does the same with
  the vector of per-edge sums (for each edge, the sum over the 16 parts of the product of the two gathered rows).
  Row `R`, lane `l` of such a layout is entry `128 R + l` of the vector. Grid point `t` reads rows
  `5000 t … 5000 t + 4999` of each: entry `(r, l)` of its block is entry `(5000 t + r, l)` of the array.
-/
import proofs.«104725_j28578712388223_2_alg».proof.Proof.Gen.KernelIdeal.Frame
import proofs.«104725_j28578712388223_2_alg».proof.Proof.Totals
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The products, edge by edge and part by part: row `src e` of `Y` times row `dst e` of `1 - Y` (each row number
    first wrapped if negative, as jnp indexing does). -/
def prods (Y : (⟨S100000x16, .f32⟩ : BufTy).Contents (Elt F)) (src dst : (⟨S3200000, .i32⟩ : BufTy).Contents (Elt F)) :
    (⟨S3200000x16, .f32⟩ : BufTy).Contents (Elt F) :=
  mulf
    (Host.gather gather_S100000x16_S3200000x1_S3200000x16_1_0_n_n_0_1_116 Y
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))
    (Host.gather gather_S100000x16_S3200000x1_S3200000x16_1_0_n_n_0_1_116
      (subf (broadcastInDim S100000x16 ![] bcast_S_S100000x16 (constant S_ .f32 0x3F800000#32)) Y)
      (broadcastInDim S3200000x1 ![0] bcast_S3200000_S3200000x1_0
        (select (cmpi .slt dst (broadcastInDim S3200000 ![] bcast_S_S3200000 (constantI S_ 32 0#32)))
          (addi dst (broadcastInDim S3200000 ![] bcast_S_S3200000 (constantI S_ 32 100000#32))) dst)))

/-- The per-edge sums: each edge's 16 products summed by the host. -/
def edgeSums (Y : (⟨S100000x16, .f32⟩ : BufTy).Contents (Elt F)) (src dst : (⟨S3200000, .i32⟩ : BufTy).Contents (Elt F)) :
    (⟨S3200000, .f32⟩ : BufTy).Contents (Elt F) :=
  Host.reduceAdd (prods Y src dst) (constant S_ .f32 0x00000000#32) reducesTo_S3200000x16_S3200000_d1 h_S_

/-- The first array the region reads is the vector of edge values in rows of 128. -/
theorem V_main_v18 (c : Dev nD) :
    (V m c main_v18 : S25000x128.Idx → F .f32)
      = shapeCast S25000x128 (m ((c : Thread nD τ).loc main_arg1)) shapeCasts_S3200000_S25000x128 := by
  show StableHlo.after hostOps0 (fun b => m (c, b)) (Proc.devRef .tc main_v18) = _
  after_results
  rfl

set_option maxHeartbeats 1000000 in
/-- The second array the region reads is the vector of per-edge sums in rows of 128. -/
theorem V_main_v19 (c : Dev nD) :
    (V m c main_v19 : S25000x128.Idx → F .f32)
      = shapeCast S25000x128 (edgeSums (m ((c : Thread nD τ).loc main_arg0)) (m ((c : Thread nD τ).loc main_arg2))
          (m ((c : Thread nD τ).loc main_arg3))) shapeCasts_S3200000_S25000x128 := by
  show StableHlo.after hostOps0 (fun b => m (c, b)) (Proc.devRef .tc main_v19) = _
  after_results_simp
  rfl

/-- Row `R`, lane `l` of a vector laid out in rows of 128 is its entry `128 R + l`. -/
theorem rows_apply {α : Type} (A : S3200000.Idx → α) (R : Fin 25000) (l : Fin 128) :
    shapeCast S25000x128 A shapeCasts_S3200000_S25000x128 (ix2 R l)
      = A (ix1 ⟨R.val * 128 + l.val, by have := R.isLt; have := l.isLt; omega⟩) :=
  shapeCast_apply A _ _ _ (by rw [Shape.rowMajor_val_one, Shape.rowMajor_val_two]; rfl)

/-- Both input windows step one block of rows per grid point and never move along the lanes. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- A grid point as a block number. -/
def blockOf (t : Fin cfg0.N) : Fin 5 := ⟨t.val, lt_of_lt_of_eq t.isLt N_0⟩

theorem row_lt (t : Fin cfg0.N) (r : Fin 5000) : t.val * 5000 + r.val < 25000 := by
  have := (blockOf t).isLt; have h : (blockOf t).val = t.val := rfl; have := r.isLt; omega

/-- Entry `(r, l)` of the first window's block at point `t` is entry `(5000 t + r, l)` of its array. -/
theorem iblk0_apply (c : Dev nD) (t : Fin cfg0.N) (r : Fin 5000) (l : Fin 128) :
    (iblk m c 0 t : Vec F S5000x128 .f32) (ix2 r l)
      = (V m c main_v18 : S25000x128.Idx → F .f32) (ix2 ⟨t.val * 5000 + r.val, row_lt t r⟩ l) := by
  unfold iblk
  rw [View.read_apply]
  show V m c main_v18 _ = V m c main_v18 _
  congr 1
  funext a
  apply Fin.ext
  match a with
  | ⟨0, _⟩ => show win0_0.index t 0 * 5000 + 1 * r.val = t.val * 5000 + r.val; rw [(index0 t).1]; omega
  | ⟨1, _⟩ => show win0_0.index t 1 * 128 + 1 * l.val = l.val; rw [(index0 t).2]; omega

/-- Entry `(r, l)` of the second window's block at point `t` is entry `(5000 t + r, l)` of its array. -/
theorem iblk1_apply (c : Dev nD) (t : Fin cfg0.N) (r : Fin 5000) (l : Fin 128) :
    (iblk m c 1 t : Vec F S5000x128 .f32) (ix2 r l)
      = (V m c main_v19 : S25000x128.Idx → F .f32) (ix2 ⟨t.val * 5000 + r.val, row_lt t r⟩ l) := by
  unfold iblk
  rw [View.read_apply]
  show V m c main_v19 _ = V m c main_v19 _
  congr 1
  funext a
  apply Fin.ext
  match a with
  | ⟨0, _⟩ => show win0_1.index t 0 * 5000 + 1 * r.val = t.val * 5000 + r.val; rw [(index1 t).1]; omega
  | ⟨1, _⟩ => show win0_1.index t 1 * 128 + 1 * l.val = l.val; rw [(index1 t).2]; omega

/-- So the first window's block at point `t` reads the vector of edge values at the block's positions. -/
theorem iblk0_pos (c : Dev nD) (t : Fin cfg0.N) (r : Fin 5000) (l : Fin 128) :
    (iblk m c 0 t : Vec F S5000x128 .f32) (ix2 r l)
      = m ((c : Thread nD τ).loc main_arg1) (ix1 (Cert.Totals.pos (blockOf t) r l)) := by
  rw [iblk0_apply, V_main_v18]
  exact rows_apply _ _ _

/-- And the second window's block reads the vector of per-edge sums there. -/
theorem iblk1_pos (c : Dev nD) (t : Fin cfg0.N) (r : Fin 5000) (l : Fin 128) :
    (iblk m c 1 t : Vec F S5000x128 .f32) (ix2 r l)
      = edgeSums (m ((c : Thread nD τ).loc main_arg0)) (m ((c : Thread nD τ).loc main_arg2))
          (m ((c : Thread nD τ).loc main_arg3)) (ix1 (Cert.Totals.pos (blockOf t) r l)) := by
  rw [iblk1_apply, V_main_v19]
  exact rows_apply _ _ _

end Cert.KernelIdeal.Blocks

end
-- ==== Proof.Accum.lean ====
/-
  The two accumulators, point by point.

  After grid point `n` each accumulator's one entry is 0 plus the totals of the blocks of points `0 … n`: the first
  point stores 0 and adds its block's total, every later point adds its own to what the point before left. The last
  point copies the accumulators to the outputs, so each output's one entry is 0 plus the totals of all five blocks,
  which is the blocked total of the array the window reads.
-/
import proofs.«104725_j28578712388223_2_alg».proof.Proof.Gen.KernelIdeal.Frame
import proofs.«104725_j28578712388223_2_alg».proof.Proof.Payloads
import proofs.«104725_j28578712388223_2_alg».proof.Proof.Pieces
import proofs.«104725_j28578712388223_2_alg».proof.Proof.Blocks
import proofs.«104725_j28578712388223_2_alg».proof.Proof.Totals
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.KernelIdeal.Payloads

variable (m : (ℓ : Loc nD τ sig) → Buf (Elt Ideal) ℓ)

/-- The total of the block the first (second) window reads at point `s`; 0 past the grid. -/
def tot0 (c : Dev nD) (s : ℕ) : EReal := if h : s < cfg0.N then blockTotal (iblk m c 0 ⟨s, h⟩) else 0
def tot1 (c : Dev nD) (s : ℕ) : EReal := if h : s < cfg0.N then blockTotal (iblk m c 1 ⟨s, h⟩) else 0

/-- The first point leaves 0 plus its block's total in each accumulator. -/
theorem first_point (c : Dev nD) (t : Fin cfg0.N) (h0 : t.val % 5 = 0) (h1 : ¬t.val % 5 = 4) (u v : Fin 1) :
    (outsAt0 m c t.val t.isLt).2.2.1 (ix2 u v) = 0 + blockTotal (iblk m c 0 t)
    ∧ (outsAt0 m c t.val t.isLt).2.2.2 (ix2 u v) = 0 + blockTotal (iblk m c 1 t) := by
  rw [outsAt0_A m c t h0 h1]
  dsimp only
  constructor
  · rw [Pieces.first_acc0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) (fun h => h1 ((hcond0_1 t).mp h))]
    rw [pay3_apply (iblk m c 0 t) _ u v, pay1_apply]
  · rw [Pieces.first_acc1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) ((hcond0_0 t).mpr h0) (fun h => h1 ((hcond0_1 t).mp h))]
    rw [pay4_apply (iblk m c 1 t) _ u v, pay2_apply]

/-- Every later point adds its block's total to what the point before left. -/
theorem later_point (c : Dev nD) (t : Fin cfg0.N) (h0 : ¬t.val % 5 = 0) (u v : Fin 1) :
    (outsAt0 m c t.val t.isLt).2.2.1 (ix2 u v) = (outsAt0 m c (t.val - 1) (Nat.lt_of_le_of_lt (Nat.sub_le _ _) t.isLt)).2.2.1 (ix2 u v) + blockTotal (iblk m c 0 t)
    ∧ (outsAt0 m c t.val t.isLt).2.2.2 (ix2 u v) = (outsAt0 m c (t.val - 1) (Nat.lt_of_le_of_lt (Nat.sub_le _ _) t.isLt)).2.2.2 (ix2 u v) + blockTotal (iblk m c 1 t) := by
  by_cases h1 : t.val % 5 = 4
  · rw [outsAt0_C m c t h0 h1]
    dsimp only
    constructor
    · rw [Pieces.last_acc0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)]
      exact pay3_apply (iblk m c 0 t) _ u v
    · rw [Pieces.last_acc1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)]
      exact pay4_apply (iblk m c 1 t) _ u v
  · rw [outsAt0_B m c t h0 h1]
    dsimp only
    constructor
    · rw [Pieces.middle_acc0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))]
      exact pay3_apply (iblk m c 0 t) _ u v
    · rw [Pieces.middle_acc1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h))]
      exact pay4_apply (iblk m c 1 t) _ u v

/-- The last point leaves in each output what it leaves in the accumulator. -/
theorem last_outs (c : Dev nD) (t : Fin cfg0.N) (h0 : ¬t.val % 5 = 0) (h1 : t.val % 5 = 4) :
    (outsAt0 m c t.val t.isLt).1 = (outsAt0 m c t.val t.isLt).2.2.1
    ∧ (outsAt0 m c t.val t.isLt).2.1 = (outsAt0 m c t.val t.isLt).2.2.2 := by
  rw [outsAt0_C m c t h0 h1]
  dsimp only
  constructor
  · rw [Pieces.last_out0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
      Pieces.last_acc0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)]
  · rw [Pieces.last_out1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1),
      Pieces.last_acc1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) ((hcond0_1 t).mpr h1)]

/-- After point `n` each accumulator holds 0 plus the block totals of points `0 … n`. -/
theorem acc_eq (c : Dev nD) : ∀ (n : ℕ) (h : n < cfg0.N) (u v : Fin 1),
    (outsAt0 m c n h).2.2.1 (ix2 u v) = 0 + ∑ s ∈ Finset.range (n + 1), tot0 m c s
    ∧ (outsAt0 m c n h).2.2.2 (ix2 u v) = 0 + ∑ s ∈ Finset.range (n + 1), tot1 m c s
  | 0, h, u, v => by
    have e := first_point m c ⟨0, h⟩ rfl (by dsimp only; omega) u v
    rw [Finset.sum_range_one, Finset.sum_range_one]
    unfold tot0 tot1
    rw [dif_pos h, dif_pos h]
    exact e
  | n + 1, h, u, v => by
    have hN : cfg0.N = 5 := N_0
    have ih := acc_eq c n (Nat.lt_of_succ_lt h) u v
    have e := later_point m c ⟨n + 1, h⟩ (by dsimp only; omega) u v
    rw [Finset.sum_range_succ _ (n + 1), Finset.sum_range_succ _ (n + 1), ← add_assoc, ← add_assoc, ← ih.1, ← ih.2]
    have e0 : tot0 m c (n + 1) = blockTotal (iblk m c 0 ⟨n + 1, h⟩) := by unfold tot0; rw [dif_pos h]
    have e1 : tot1 m c (n + 1) = blockTotal (iblk m c 1 ⟨n + 1, h⟩) := by unfold tot1; rw [dif_pos h]
    rw [e0, e1]
    exact e

/-- A block's total, from the positions it reads. -/
theorem tot0_eq (c : Dev nD) (s : Fin 5) :
    tot0 m c s.val = Cert.Totals.blockSum (m ((c : Thread nD τ).loc main_arg1)) s := by
  have hs : s.val < cfg0.N := lt_of_lt_of_eq s.isLt N_0.symm
  unfold tot0
  rw [dif_pos hs]
  unfold blockTotal Cert.Totals.blockSum
  refine Finset.sum_congr rfl fun r _ => Finset.sum_congr rfl fun l _ => ?_
  exact Blocks.iblk0_pos m c ⟨s.val, hs⟩ r l

theorem tot1_eq (c : Dev nD) (s : Fin 5) :
    tot1 m c s.val = Cert.Totals.blockSum (Blocks.edgeSums (m ((c : Thread nD τ).loc main_arg0))
      (m ((c : Thread nD τ).loc main_arg2)) (m ((c : Thread nD τ).loc main_arg3))) s := by
  have hs : s.val < cfg0.N := lt_of_lt_of_eq s.isLt N_0.symm
  unfold tot1
  rw [dif_pos hs]
  unfold blockTotal Cert.Totals.blockSum
  refine Finset.sum_congr rfl fun r _ => Finset.sum_congr rfl fun l _ => ?_
  exact Blocks.iblk1_pos m c ⟨s.val, hs⟩ r l

/-- The two totals the region computes: the blocked totals, from 0, of the edge values and of the per-edge sums. -/
def total0 (c : Dev nD) : EReal := Cert.Totals.blocked 0 (m ((c : Thread nD τ).loc main_arg1))
def total1 (c : Dev nD) : EReal :=
  Cert.Totals.blocked 0 (Blocks.edgeSums (m ((c : Thread nD τ).loc main_arg0)) (m ((c : Thread nD τ).loc main_arg2))
    (m ((c : Thread nD τ).loc main_arg3)))

/-- After the last point the first output's entry is the first total, the second's the second. -/
theorem outs_last (c : Dev nD) (h : 4 < cfg0.N) (y : S1x1.Idx) :
    (outsAt0 m c 4 h).1 y = total0 m c ∧ (outsAt0 m c 4 h).2.1 y = total1 m c := by
  obtain ⟨u, v, rfl⟩ : ∃ (u v : Fin 1), y = ix2 u v := ⟨y 0, y 1, eq_ix2 y⟩
  have lo := last_outs m c ⟨4, h⟩ (by dsimp only; omega) rfl
  have ac := acc_eq m c 4 h u v
  constructor
  · rw [show (outsAt0 m c 4 h).1 = (outsAt0 m c 4 h).2.2.1 from lo.1, ac.1, Finset.sum_range]
    unfold total0 Cert.Totals.blocked
    exact congrArg (0 + ·) (Finset.sum_congr rfl fun s _ => tot0_eq m c s)
  · rw [show (outsAt0 m c 4 h).2.1 = (outsAt0 m c 4 h).2.2.2 from lo.2, ac.2, Finset.sum_range]
    unfold total1 Cert.Totals.blocked
    exact congrArg (0 + ·) (Finset.sum_congr rfl fun s _ => tot1_eq m c s)

end Cert.KernelIdeal.Accum

end
-- ==== Proof.Outputs.lean ====
/-
  The two output arrays after the region.

  Each output is one entry, written back once, after the last grid point, from the accumulator: it ends holding the
  total the accumulator reached.
-/
import proofs.«104725_j28578712388223_2_alg».proof.Proof.Accum

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen

variable (m : (ℓ : Loc nD τ sig) → Buf (Elt Ideal) ℓ)

/-- The one write-back of output one, at the last point, writes the first total: its block is the whole one-entry array. -/
theorem flushed2 (c : Dev nD) (t : Fin cfg0.N) (hf : (cfg0.win 2).flush t = true) :
    (dats m 0 c).flushed 2 t = ((cfg0.win 2).blk t).view.read (Elt Ideal) (fun _ => total0 m c) := by
  have hN : cfg0.N = 5 := N_0
  have h4 : t.val = 4 := by have := (flush0_2 t).mp hf; have := t.isLt; omega
  obtain rfl : t = t0_4 := Fin.ext h4
  show (cfg0.win 2).cut (grid0.coords t0_4) ((dats m 0 c).after 2 t0_4) = _
  rw [after0_2]
  have e : (outsAt0 m c t0_4.val t0_4.isLt).1 = fun _ => total0 m c :=
    funext fun y => (outs_last m c t0_4.isLt y).1
  rw [e]
  have hz' : (fun a => win0_2.index t0_4 a * main_v20_0.ty.shape.size a) = fun _ => 0 :=
    funext fun a => by fin_cases a <;> decide
  exact (Memref.read_access_unit_zero (Elt Ideal) main_v20_0 hz' (fun a => by rw [congrFun hz' a]; simp)
    (fun _ => total0 m c)).symm

/-- So that output array ends holding the total. -/
theorem final2 (c : Dev nD) : (dats m 0 c).arrAt 2 cfg0.N = fun _ => total0 m c :=
  (dats m 0 c).arrAt_eq_of_cover 2 (fun _ => total0 m c) (flushed2 m c) fun i =>
    ⟨t0_4, (flush0_2 t0_4).mpr rfl, by
      show i ∈ ((View.whole main_v20_0).slice (win0_2.rect t0_4)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_4 0 * win0_2.size 0 ≤ (i 0 : Nat)
          ∧ (i 0 : Nat) < win0_2.index t0_4 0 * win0_2.size 0 + win0_2.xsize (grid0.coords t0_4) 0
        rw [show win0_2.index t0_4 0 * win0_2.size 0 = 0 from by decide +kernel,
          show win0_2.xsize (grid0.coords t0_4) 0 = 1 from by decide +kernel]
        omega
      | ⟨1, _⟩ =>
        show win0_2.index t0_4 1 * win0_2.size 1 ≤ (i 1 : Nat)
          ∧ (i 1 : Nat) < win0_2.index t0_4 1 * win0_2.size 1 + win0_2.xsize (grid0.coords t0_4) 1
        rw [show win0_2.index t0_4 1 * win0_2.size 1 = 0 from by decide +kernel,
          show win0_2.xsize (grid0.coords t0_4) 1 = 1 from by decide +kernel]
        omega⟩

/-- The one write-back of output two, at the last point, writes the second total: its block is the whole one-entry array. -/
theorem flushed3 (c : Dev nD) (t : Fin cfg0.N) (hf : (cfg0.win 3).flush t = true) :
    (dats m 0 c).flushed 3 t = ((cfg0.win 3).blk t).view.read (Elt Ideal) (fun _ => total1 m c) := by
  have hN : cfg0.N = 5 := N_0
  have h4 : t.val = 4 := by have := (flush0_3 t).mp hf; have := t.isLt; omega
  obtain rfl : t = t0_4 := Fin.ext h4
  show (cfg0.win 3).cut (grid0.coords t0_4) ((dats m 0 c).after 3 t0_4) = _
  rw [after0_3]
  have e : (outsAt0 m c t0_4.val t0_4.isLt).2.1 = fun _ => total1 m c :=
    funext fun y => (outs_last m c t0_4.isLt y).2
  rw [e]
  have hz' : (fun a => win0_3.index t0_4 a * main_v20_1.ty.shape.size a) = fun _ => 0 :=
    funext fun a => by fin_cases a <;> decide
  exact (Memref.read_access_unit_zero (Elt Ideal) main_v20_1 hz' (fun a => by rw [congrFun hz' a]; simp)
    (fun _ => total1 m c)).symm

/-- So that output array ends holding the total. -/
theorem final3 (c : Dev nD) : (dats m 0 c).arrAt 3 cfg0.N = fun _ => total1 m c :=
  (dats m 0 c).arrAt_eq_of_cover 3 (fun _ => total1 m c) (flushed3 m c) fun i =>
    ⟨t0_4, (flush0_3 t0_4).mpr rfl, by
      show i ∈ ((View.whole main_v20_1).slice (win0_3.rect t0_4)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_4 0 * win0_3.size 0 ≤ (i 0 : Nat)
          ∧ (i 0 : Nat) < win0_3.index t0_4 0 * win0_3.size 0 + win0_3.xsize (grid0.coords t0_4) 0
        rw [show win0_3.index t0_4 0 * win0_3.size 0 = 0 from by decide +kernel,
          show win0_3.xsize (grid0.coords t0_4) 0 = 1 from by decide +kernel]
        omega
      | ⟨1, _⟩ =>
        show win0_3.index t0_4 1 * win0_3.size 1 ≤ (i 1 : Nat)
          ∧ (i 1 : Nat) < win0_3.index t0_4 1 * win0_3.size 1 + win0_3.xsize (grid0.coords t0_4) 1
        rw [show win0_3.index t0_4 1 * win0_3.size 1 = 0 from by decide +kernel,
          show win0_3.xsize (grid0.coords t0_4) 1 = 1 from by decide +kernel]
        omega⟩

end Cert.KernelIdeal.Accum

end
-- ==== Proof.KernelRun.lean ====
/-
  The kernel program's run, with its three scalar results named.

  After the region the host reads the two one-entry outputs as scalars, divides the second by the first (loss 1),
  computes from `Y` the sum over the 16 parts of the squared deviation of each column's sum from 6250 (loss 2), and
  adds the two. The two outputs hold the two totals, and `Y` is as it was given.
-/
import proofs.«104725_j28578712388223_2_alg».proof.Proof.Outputs
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.KernelIdeal.Accum

variable (m : (ℓ : Loc nD τ sig) → Buf (Elt Ideal) ℓ) (ρ : Dev nD → PrngReg)

/-- Loss 2 as the host computes it from `Y`. -/
def loss2 (Y : FVec Ideal S100000x16 .f32) : FVec Ideal S_ .f32 :=
  Host.reduceAdd (F := Ideal)
    (mulf
      (subf (Host.reduceAdd Y (constant S_ .f32 0x00000000#32) reducesTo_S100000x16_S16_d0 h_S_)
        (broadcastInDim S16 ![] bcast_S_S16 (constant S_ .f32 0x45C35000#32)))
      (subf (Host.reduceAdd Y (constant S_ .f32 0x00000000#32) reducesTo_S100000x16_S16_d0 h_S_)
        (broadcastInDim S16 ![] bcast_S_S16 (constant S_ .f32 0x45C35000#32))))
    (constant S_ .f32 0x00000000#32) reducesTo_S16_S_d0 h_S_

/-- A one-entry output holding `x`, read as a scalar. -/
def scalarOf (x : EReal) : FVec Ideal S_ .f32 :=
  shapeCast S_ (fun _ : S1x1.Idx => x) shapeCasts_S1x1_S_

/-- Loss 1: the second total over the first. -/
def loss1 (c : Dev nD) : FVec Ideal S_ .f32 :=
  Host.divf (F := Ideal) (scalarOf (total1 m c)) (scalarOf (total0 m c))

/-- The loss: loss 1 plus loss 2. -/
def loss (c : Dev nD) : FVec Ideal S_ .f32 :=
  addf (F := Ideal) (loss1 m c) (loss2 (m ((c : Thread nD τ).loc main_arg0)))

/-- After the region the first output holds the first total, -/
theorem out0_arr (c : Dev nD) : Pipeline.withArrays (cfgs 0).spec c (V0 m c) (fun w => (dats m 0 c).arrAt w (cfgs 0).N) (Proc.devRef .tc main_v20_0) = fun _ => total0 m c :=
  (Pipeline.withArrays_arr spec0 launch0.win.arr_inj c _ _ 2).trans (final2 m c)

/-- the second output the second total, -/
theorem out1_arr (c : Dev nD) : Pipeline.withArrays (cfgs 0).spec c (V0 m c) (fun w => (dats m 0 c).arrAt w (cfgs 0).N) (Proc.devRef .tc main_v20_1) = fun _ => total1 m c :=
  (Pipeline.withArrays_arr spec0 launch0.win.arr_inj c _ _ 3).trans (final3 m c)

/-- and `Y`, which no window stages and no host line writes, is as given. -/
theorem arg0_arr (c : Dev nD) : Pipeline.withArrays (cfgs 0).spec c (V0 m c) (fun w => (dats m 0 c).arrAt w (cfgs 0).N) (Proc.devRef .tc main_arg0) = m ((c : Thread nD τ).loc main_arg0) :=
  (Pipeline.withArrays_of_ne _ c (V0 m c) _ main_arg0
    (by exact (by decide : ∀ w, Pipeline.arrRef spec0 w ≠ main_arg0))).trans (V_main_arg0 m c)

/-- The host lines after the region leave the loss in the first result, -/
theorem tail_v29 (c : Dev nD) :
    Pipeline.afterTail₀ cfgs (dats m) 0 (V0 m) [hostOps1] c main_v29 = loss m c := by
  unfold Pipeline.afterTail₀
  show StableHlo.after hostOps1 _ (Proc.devRef .tc main_v29) = _
  after_results
  rw [out0_arr m c, out1_arr m c, arg0_arr m c]
  rfl

/-- loss 1 in the second, -/
theorem tail_v23 (c : Dev nD) :
    Pipeline.afterTail₀ cfgs (dats m) 0 (V0 m) [hostOps1] c main_v23 = loss1 m c := by
  unfold Pipeline.afterTail₀
  show StableHlo.after hostOps1 _ (Proc.devRef .tc main_v23) = _
  after_results
  rw [out0_arr m c, out1_arr m c]
  rfl

/-- and loss 2 in the third. -/
theorem tail_v28 (c : Dev nD) :
    Pipeline.afterTail₀ cfgs (dats m) 0 (V0 m) [hostOps1] c main_v28 = loss2 (m ((c : Thread nD τ).loc main_arg0)) := by
  unfold Pipeline.afterTail₀
  show StableHlo.after hostOps1 _ (Proc.devRef .tc main_v28) = _
  after_results
  rw [arg0_arr m c]
  rfl

/-- The run: every weakly fair execution terminates with the three results at the loss, loss 1 and loss 2, and the
    four arguments unchanged. -/
theorem run : θ_run defs (onTc (τ := τ) (main (F := Ideal))) ⟨m, fun _ => 0, ρ⟩ fun r => ∀ c : Dev nD,
      r.2.mem ((c.tc : Thread nD τ).loc main_v29) = loss m c
      ∧ r.2.mem ((c.tc : Thread nD τ).loc main_v23) = loss1 m c
      ∧ r.2.mem ((c.tc : Thread nD τ).loc main_v28) = loss2 (m ((c.tc : Thread nD τ).loc main_arg0))
      ∧ r.2.mem ((c.tc : Thread nD τ).loc main_arg0) = m ((c.tc : Thread nD τ).loc main_arg0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v29 (Pipeline.mem_restRefs_of main_v29 (by decide) (by decide))).trans (tail_v29 m c),
      ((h c).2 main_v23 (Pipeline.mem_restRefs_of main_v23 (by decide) (by decide))).trans (tail_v23 m c),
      ((h c).2 main_v28 (Pipeline.mem_restRefs_of main_v28 (by decide) (by decide))).trans (tail_v28 m c),
      ((h c).2 main_arg0 (Pipeline.mem_restRefs_of main_arg0 (by decide) (by decide))).trans (W_main_arg0 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.RefTotals.lean ====
/-
  The reference's two totals are the kernel's.

  The reference sums all 3,200,000 edge values in one reduction, and all 3,200,000 × 16 products in another, each
  from the zero word. The kernel's program forms the same products, sums each edge's 16 of them on the host, and
  then totals the edge values and the per-edge sums block by block. Over the extended reals a sum does not depend on
  how its terms are grouped, so the totals agree; the zero word is the number 0, so the starting values agree too.
-/
import proofs.«104725_j28578712388223_2_alg».proof.Proof.Gen.ReferenceIdeal.Read
import proofs.«104725_j28578712388223_2_alg».proof.Proof.Blocks
import proofs.«104725_j28578712388223_2_alg».proof.Proof.Totals

noncomputable section

open scoped BigOperators
open Idealize.ShloMosaic Idealize.ShloMosaic.ValueIdx

namespace Cert.RefTotals

open Cert.KernelIdeal.Blocks Cert.ReferenceIdeal.Read

abbrev YT := (⟨Cert.KernelIdeal.S100000x16, .f32⟩ : BufTy).Contents (Elt Ideal)
abbrev AT := (⟨Cert.KernelIdeal.S3200000, .f32⟩ : BufTy).Contents (Elt Ideal)
abbrev IT := (⟨Cert.KernelIdeal.S3200000, .i32⟩ : BufTy).Contents (Elt Ideal)

/-- The two programs form the same products. -/
theorem prods_eq (Y : YT) (src dst : IT) : prods (F := Ideal) Y src dst = val_main_v17 (F := Ideal) Y src dst := rfl

/-- Each per-edge sum is 0 plus the edge's 16 products. -/
theorem edgeSums_eq (Y : YT) (src dst : IT) :
    edgeSums (F := Ideal) Y src dst = Cert.Totals.rowSums (prods (F := Ideal) Y src dst) := by
  funext e
  obtain ⟨k, rfl⟩ : ∃ k : Fin 3200000, e = ix1 k := ⟨e 0, eq_ix1 e⟩
  unfold edgeSums Cert.Totals.rowSums
  generalize prods (F := Ideal) Y src dst = P
  simp only [Host.reduceAdd, Ideal.hostReduceAdd_def]
  rw [Ideal.hostReduceAdd_single Cert.KernelIdeal.Facts₀.reducesTo_S3200000x16_S3200000_d1 (by decide)]
  refine congr (congrArg HAdd.hAdd ?_) (Finset.sum_congr rfl fun j _ => congrArg P ?_)
  · exact Ideal.ofBits_zero_f32
  · exact funext fun a => Fin.ext (by match a with | ⟨0, _⟩ => rfl | ⟨1, _⟩ => rfl)

/-- The reference's total of the edge values is the blocked total from 0. -/
theorem den_eq (A : AT) (i : Cert.ReferenceIdeal.S_.Idx) :
    val_main_v0 (F := Ideal) A i = Cert.Totals.blocked 0 A := by
  rw [val_main_v0_apply, Cert.Totals.blocked_eq]
  exact congrArg (· + _) Ideal.ofBits_zero_f32

/-- The reference's total of the products is the blocked total, from 0, of the per-edge sums. -/
theorem num_eq (Y : YT) (src dst : IT) (i : Cert.ReferenceIdeal.S_.Idx) :
    val_main_v18 (F := Ideal) Y src dst i = Cert.Totals.blocked 0 (edgeSums (F := Ideal) Y src dst) := by
  rw [val_main_v18_apply, edgeSums_eq, Cert.Totals.blocked_rowSums, prods_eq]
  exact congrArg (· + _) Ideal.ofBits_zero_f32

end Cert.RefTotals

end
-- ==== Proof.Results.lean ====
/-
  The reference's three results are the kernel program's.

  Loss 1 is a quotient of two totals, and the two programs' totals agree (the products, their grouping into sums and
  the starting zero are the same numbers); loss 2 is the same expression of `Y` in both programs; the loss is their
  sum in both.
-/
import proofs.«104725_j28578712388223_2_alg».proof.Proof.KernelRun
import proofs.«104725_j28578712388223_2_alg».proof.Proof.RefTotals

noncomputable section

open Idealize.ShloMosaic Idealize.ShloMosaic.TcCoe Idealize.SL.Sem Idealize.ShloMosaic.ValueIdx

namespace Cert.Results

open Cert.KernelIdeal Cert.KernelIdeal.Run Cert.KernelIdeal.Accum Cert.ReferenceIdeal.Read Cert.RefTotals

variable (m : (ℓ : Loc nD τ sig) → Buf (Elt Ideal) ℓ)

/-- The reference's loss 1 is the kernel program's. -/
theorem loss1_eq (c : Dev nD) :
    val_main_v19 (F := Ideal) (m ((c.tc : Thread nD τ).loc main_arg0)) (m ((c.tc : Thread nD τ).loc main_arg1))
        (m ((c.tc : Thread nD τ).loc main_arg2)) (m ((c.tc : Thread nD τ).loc main_arg3))
      = loss1 m c := by
  have e1 : val_main_v18 (F := Ideal) (m ((c.tc : Thread nD τ).loc main_arg0)) (m ((c.tc : Thread nD τ).loc main_arg2))
      (m ((c.tc : Thread nD τ).loc main_arg3)) = scalarOf (total1 m c) := funext fun i => num_eq _ _ _ i
  have e0 : val_main_v0 (F := Ideal) (m ((c.tc : Thread nD τ).loc main_arg1)) = scalarOf (total0 m c) :=
    funext fun i => den_eq _ i
  unfold val_main_v19 loss1
  rw [e1, e0]

/-- The reference's loss 2 is the kernel program's: the same expression of `Y`. -/
theorem loss2_eq (Y : YT) : val_main_v24 (F := Ideal) Y = loss2 Y := rfl

/-- The reference's loss is the kernel program's. -/
theorem loss_eq (c : Dev nD) :
    val_main_v25 (F := Ideal) (m ((c.tc : Thread nD τ).loc main_arg0)) (m ((c.tc : Thread nD τ).loc main_arg1))
        (m ((c.tc : Thread nD τ).loc main_arg2)) (m ((c.tc : Thread nD τ).loc main_arg3))
      = loss m c := by
  unfold val_main_v25 loss
  rw [loss1_eq m c, loss2_eq]

end Cert.Results

end
-- ==== Proof.lean ====
/-
  The certificate's five claims.

  The kernel program totals 3,200,000 edge values, and 3,200,000 per-edge sums of 16 products each, five blocks of
  5,000 rows of 128 lanes at a time, into two one-entry accumulators; the reference totals the edge values and all
  the products in one reduction each. Over the extended reals a sum does not depend on the grouping or the order of
  its terms, and the zero the accumulators start from is the number 0, so the two programs' totals agree; loss 1 is
  their quotient, loss 2 the same expression of `Y` in both programs, the loss their sum. The frames are the
  generated ones (the reference's is its generated run with the results dropped); the idealization rewrote nothing.
-/
import proofs.«104725_j28578712388223_2_alg».proof.Defs
import proofs.«104725_j28578712388223_2_alg».proof.Proof.Gen.Kernel
import proofs.«104725_j28578712388223_2_alg».proof.Proof.Gen.Kernel.Skeleton
import proofs.«104725_j28578712388223_2_alg».proof.Proof.Gen.Kernel.Launch
import proofs.«104725_j28578712388223_2_alg».proof.Proof.Gen.Kernel.Points
import proofs.«104725_j28578712388223_2_alg».proof.Proof.Gen.Kernel.Frame
import proofs.«104725_j28578712388223_2_alg».proof.Proof.Gen.KernelIdeal
import proofs.«104725_j28578712388223_2_alg».proof.Proof.Gen.KernelIdeal.Skeleton
import proofs.«104725_j28578712388223_2_alg».proof.Proof.Gen.KernelIdeal.Launch
import proofs.«104725_j28578712388223_2_alg».proof.Proof.Gen.KernelIdeal.Points
import proofs.«104725_j28578712388223_2_alg».proof.Proof.Gen.KernelIdeal.Frame
import proofs.«104725_j28578712388223_2_alg».proof.Proof.Gen.ReferenceIdeal
import proofs.«104725_j28578712388223_2_alg».proof.Proof.Gen.Pre_finite_inputs
import proofs.«104725_j28578712388223_2_alg».proof.Proof.Gen.ReferenceIdeal.Run
import proofs.«104725_j28578712388223_2_alg».proof.Proof.Gen.ReferenceIdeal.Read
import proofs.«104725_j28578712388223_2_alg».proof.Proof.Results
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2.2.2)
    (Cert.ReferenceIdeal.Value.run (F := Ideal) m ρ)

/-- From arguments that agree the two programs end with the same loss, loss 1 and loss 2, and the same `Y`. -/
theorem algebraic : Cert.algebraic_KernelIdeal_ReferenceIdeal := by
  intro m ρ m' ρ' _ hagree
  refine ⟨fun c => Cert.KernelIdeal.Run.loss m c, fun c => Cert.KernelIdeal.Run.loss1 m c,
    fun c => Cert.KernelIdeal.Run.loss2 (m ((c.tc : Thread Cert.KernelIdeal.nD Cert.KernelIdeal.τ).loc Cert.KernelIdeal.main_arg0)),
    fun c => m ((c.tc : Thread Cert.KernelIdeal.nD Cert.KernelIdeal.τ).loc Cert.KernelIdeal.main_arg0),
    Cert.KernelIdeal.Run.run m ρ, ?_⟩
  refine (θ_run Cert.ReferenceIdeal.defs _ _).mono (fun _ h c => ?_) (Cert.ReferenceIdeal.Value.run (F := Ideal) m' ρ')
  obtain ⟨h25, h19, h24, ha, hk⟩ := h c
  obtain ⟨g0, g1, g2, g3⟩ := hagree c
  refine ⟨h25.trans ?_, h19.trans ?_, h24.trans ?_, ha.trans g0, hk⟩
  · rw [g0, g1, g2, g3]
    exact (Cert.ReferenceIdeal.Read.val_main_v25_eq _ _ _ _).trans (Cert.Results.loss_eq m c)
  · rw [g0, g1, g2, g3]
    exact (Cert.ReferenceIdeal.Read.val_main_v19_eq _ _ _ _).trans (Cert.Results.loss1_eq m c)
  · rw [g0]
    exact (Cert.ReferenceIdeal.Read.val_main_v24_eq _).trans (Cert.Results.loss2_eq _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
